-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x3 : Shape := ⟨2, ![16384, 3]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x3 : S_.BroadcastsInDim S16384x3 (![] : Fin 0 → Fin S16384x3.rank)
  reducesTo_S16384x3_S_d0_1 : S16384x3.ReducesTo [0, 1] S_

variable [Facts]

def fn {F : FTy → Type} [FloatOps F] (main_arg0 : FVec F S16384x16384 .f32) (main_arg1 : FVec F S16384x3 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x16384 : Shape := ⟨2, ![16384, 16384]⟩
abbrev S16384x3 : Shape := ⟨2, ![16384, 3]⟩
abbrev S2048x2048 : Shape := ⟨2, ![2048, 2048]⟩
abbrev S2048x3 : Shape := ⟨2, ![2048, 3]⟩
abbrev S_ : Shape := ⟨0, ![]⟩
abbrev S16384 : Shape := ⟨1, ![16384]⟩

abbrev nBuf : Space → Nat
  | .hbm => 11
  | .vmem => 7
  | .smem => 0
  | _ => 0

abbrev bufTy : (tb : Table) → Fin (tcTables nBuf tb) → BufTy
  | .hbm, ⟨0, _⟩ => ⟨S16384x16384, .f32⟩
  | .hbm, ⟨1, _⟩ => ⟨S16384x3, .f32⟩
  | .hbm, ⟨2, _⟩ => ⟨S16384x3, .f32⟩
  | .hbm, ⟨3, _⟩ => ⟨S16384x3, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S2048x2048, .f32⟩
  | .local _ .vmem, ⟨1, _⟩ => ⟨S2048x2048, .f32⟩
  | .local _ .vmem, ⟨2, _⟩ => ⟨S2048x3, .f32⟩
  | .local _ .vmem, ⟨3, _⟩ => ⟨S2048x3, .f32⟩
  | .local _ .vmem, ⟨4, _⟩ => ⟨S2048x3, .f32⟩
  | .local _ .vmem, ⟨5, _⟩ => ⟨S2048x3, .f32⟩
  | .local _ .vmem, ⟨6, _⟩ => ⟨S2048x3, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  inb_S2048x2048_S2048x2048_0_0 : ∀ a, (![0, 0] : Fin 2 → Nat) a + S2048x2048.size a ≤ S2048x2048.size a
  h_S2048x2048 : 0 < S2048x2048.numel
  reducesTo_S16384x3_S16384_d1 : S16384x3.ReducesTo [1] S16384
  h_S_ : 0 < S_.numel
  reducesTo_S16384_S_d0 : S16384.ReducesTo [0] S_
  dot_S2048x2048_S2048x3_S2048x3_1_0_0_1_n_n_wf : DotDims.WF S2048x2048 S2048x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x16384.size a
  hwx0_0 : ∀ i : grid0.Coords, EltTy.bits .f32 = 32 ∨ (Rect.block (s := S16384x16384) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S16384x3.size a
  hwx0_1 : ∀ i : grid0.Coords, EltTy.bits .f32 = 32 ∨ (Rect.block (s := S16384x3) S2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x3.size a ≤ S16384x3.size a
  hwx0_2 : ∀ i : grid0.Coords, EltTy.bits .f32 = 32 ∨ (Rect.block (s := S16384x3) S2048x3.size (cc0_transform_2 i) (hinb0_2 i)).WholeWords (EltTy.packing .f32)

variable [Facts₀]

def dot_S2048x2048_S2048x3_S2048x3_1_0_0_1_n_n : DotDims S2048x2048 S2048x3 S2048x3 where
  lhsContracting := [1]
  rhsContracting := [0]
  lhsNonContracting := [0]
  rhsNonContracting := [1]
  lhsBatch := []
  rhsBatch := []
  wf := dot_S2048x2048_S2048x3_S2048x3_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x3 : Shape := ⟨2, ![16384, 3]⟩
abbrev S_ : Shape := ⟨0, ![]⟩
abbrev S16384 : Shape := ⟨1, ![16384]⟩

abbrev nBuf : Space → Nat
  | .hbm => 11
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x3, .f32⟩
  | .hbm, ⟨2, _⟩ => ⟨S16384x3, .f32⟩
  | .hbm, ⟨3, _⟩ => ⟨S16384x3, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  reducesTo_S16384_S_d0 : S16384.ReducesTo [0] S_
  dot_S16384x16384_S16384x3_S16384x3_1_0_0_1_n_n_wf : DotDims.WF S16384x16384 S16384x3 S16384x3 [1] [0] [0] [1] [] []

variable [Facts₀]

def dot_S16384x16384_S16384x3_S16384x3_1_0_0_1_n_n : DotDims S16384x16384 S16384x3 S16384x3 where
  lhsContracting := [1]
  rhsContracting := [0]
  lhsNonContracting := [0]
  rhsNonContracting := [1]
  lhsBatch := []
  rhsBatch := []
  wf := dot_S16384x16384_S16384x3_S16384x3_1_0_0_1_n_n_wf

class Facts : Prop extends Facts₀ where

variable [Facts]
-- ==== Proof.Pieces.lean ====
/-
  What one grid point leaves behind, as values.

  The kernel's body keeps a running [2048, 3] accumulator in a scratch buffer that survives from one grid point to the
  next. At a point it (i) stores the zero block into the accumulator when the point is the first of its row of the grid,
  (ii) replaces the accumulator by `accumulator + (L-block × verts-block)`, the product taken into a zero matrix, and
  (iii) copies the accumulator to the output block when the point is the last of its row. Write `step acc x₀ x₁` for the
  value stored in (ii), as a function of the accumulator `acc` it reads and of the two input blocks `x₀` (2048 × 2048) and
  `x₁` (2048 × 3). Then, for any float values:

    first point of a row :  the accumulator ends at `step 0 x₀ x₁`       (the zero block read back, then the update);
    a middle point       :  the accumulator ends at `step acc x₀ x₁`;
    last point of a row  :  the accumulator AND the output block end at `step acc x₀ x₁`.

  Each statement reads the stores the body performed back through the buffer they cover: every store covers its whole
  buffer at offset zero, every load reads a whole buffer at offset zero, so a store's value is its payload and a load's
  value is the buffer's contents.
-/
import proofs.«121353_j9431748182106_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Laplacian

open Cert.KernelIdeal Cert.KernelIdeal.Gen

variable {F : FTy → Type} [FloatOps F]

/-- Offset (0, 0), as the constant function. -/
theorem offset_zero : (![0, 0] : Fin 2 → Nat) = fun _ => 0 := funext fun a => by fin_cases a <;> rfl

/-- The zero block the first point of a row stores into the accumulator. -/
abbrev zeroBlock : FVec F S2048x3 .f32 := k0_pay1 (F := F)

/-- The update of the accumulator: `acc + x₀ × x₁`, the matrix product taken into a zero matrix. -/
abbrev step (acc : Vec F S2048x3 .f32) (x0 : Vec F S2048x2048 .f32) (x1 : Vec F S2048x3 .f32) : FVec F S2048x3 .f32 :=
  k0_pay2 acc x0 x1

/-- A MIDDLE point of a row (neither first nor last) leaves the accumulator at `step acc x₀ x₁`: its one store covers
    the accumulator, and its three loads read whole buffers. -/
theorem acc_middle (c : Dev nD) (i : grid0.Coords) (a2 : Memref sig .tc .vmem S2048x2048 .f32) (h2 : a2.IsWhole)
    (a3 : Memref sig .tc .vmem S2048x3 .f32) (h3 : a3.IsWhole) (a4 : Memref sig .tc .vmem S2048x3 .f32) (h4 : a4.IsWhole)
    (a5 : Memref sig .tc .vmem S2048x3 .f32) (h5 : a5.IsWhole) (hc0 : ¬cond0_0 i) (hc1 : ¬cond0_1 i)
    (x0 : Vec F S2048x2048 .f32) (x1 : Vec F S2048x3 .f32) (acc : Vec F S2048x3 .f32) :
    sout0_B_0 c i a2 h2 a3 h3 a4 h4 a5 h5 hc0 hc1 x0 x1 acc = step acc x0 x1 := by
  unfold sout0_B_0
  rw [View.read_writes_eq_canon _ _ _ (scover0_B_0 c i a2 h2 a3 h3 a4 h4 a5 h5 hc0 hc1 x0 x1 acc)]
  unfold kernelRun0_B
  dsimp only
  rw [View.canon_unit_zero offset_zero]
  simp only [View.readAt_eq_ld, h2.read_unread, h3.read_unread, h5.read_unread,
    View.ld_unit_zero (S := S2048x3) offset_zero, View.ld_unit_zero (S := S2048x2048) offset_zero]

/-- The LAST point of a row leaves the accumulator at `step acc x₀ x₁` as a middle point does … -/
theorem acc_last (c : Dev nD) (i : grid0.Coords) (a2 : Memref sig .tc .vmem S2048x2048 .f32) (h2 : a2.IsWhole)
    (a3 : Memref sig .tc .vmem S2048x3 .f32) (h3 : a3.IsWhole) (a4 : Memref sig .tc .vmem S2048x3 .f32) (h4 : a4.IsWhole)
    (a5 : Memref sig .tc .vmem S2048x3 .f32) (h5 : a5.IsWhole) (hc0 : ¬cond0_0 i) (hc1 : cond0_1 i)
    (x0 : Vec F S2048x2048 .f32) (x1 : Vec F S2048x3 .f32) (acc : Vec F S2048x3 .f32) :
    sout0_C_0 c i a2 h2 a3 h3 a4 h4 a5 h5 hc0 hc1 x0 x1 acc = step acc x0 x1 := by
  unfold sout0_C_0
  rw [View.read_writes_eq_canon _ _ _ (scover0_C_0 c i a2 h2 a3 h3 a4 h4 a5 h5 hc0 hc1 x0 x1 acc)]
  unfold kernelRun0_C
  dsimp only
  sl_unfold_words
  rw [View.canon_unit_zero offset_zero]
  simp only [View.readAt_eq_ld, h2.read_unread, h3.read_unread, h5.read_unread,
    View.ld_unit_zero (S := S2048x3) offset_zero, View.ld_unit_zero (S := S2048x2048) offset_zero]

/-- … and copies it to the output block: the output's one store holds the accumulator read back after the update. -/
theorem out_last (c : Dev nD) (i : grid0.Coords) (a2 : Memref sig .tc .vmem S2048x2048 .f32) (h2 : a2.IsWhole)
    (a3 : Memref sig .tc .vmem S2048x3 .f32) (h3 : a3.IsWhole) (a4 : Memref sig .tc .vmem S2048x3 .f32) (h4 : a4.IsWhole)
    (a5 : Memref sig .tc .vmem S2048x3 .f32) (h5 : a5.IsWhole) (hc0 : ¬cond0_0 i) (hc1 : cond0_1 i)
    (x0 : Vec F S2048x2048 .f32) (x1 : Vec F S2048x3 .f32) (acc : Vec F S2048x3 .f32) :
    out0_C_2 c i a2 h2 a3 h3 a4 h4 a5 h5 hc0 hc1 x0 x1 acc = step acc x0 x1 := by
  unfold out0_C_2
  rw [View.read_writes_eq_canon _ _ _ (cover0_C_2 c i a2 h2 a3 h3 a4 h4 a5 h5 hc0 hc1 x0 x1 acc)]
  unfold kernelRun0_C
  dsimp only
  sl_unfold_words
  rw [View.canon_unit_zero offset_zero, View.readCov_unit_zero (S := S2048x3) _ offset_zero]
  simp only [View.readAt_eq_ld, h2.read_unread, h3.read_unread, h5.read_unread,
    View.ld_unit_zero (S := S2048x3) offset_zero, View.ld_unit_zero (S := S2048x2048) offset_zero]

/-- The FIRST point of a row leaves the accumulator at `step 0 x₀ x₁`: the zero block is stored, read back, and updated. -/
theorem acc_first (c : Dev nD) (i : grid0.Coords) (a2 : Memref sig .tc .vmem S2048x2048 .f32) (h2 : a2.IsWhole)
    (a3 : Memref sig .tc .vmem S2048x3 .f32) (h3 : a3.IsWhole) (a4 : Memref sig .tc .vmem S2048x3 .f32) (h4 : a4.IsWhole)
    (a5 : Memref sig .tc .vmem S2048x3 .f32) (h5 : a5.IsWhole) (hc0 : cond0_0 i) (hc1 : ¬cond0_1 i)
    (x0 : Vec F S2048x2048 .f32) (x1 : Vec F S2048x3 .f32) :
    sout0_A_0 c i a2 h2 a3 h3 a4 h4 a5 h5 hc0 hc1 x0 x1 = step zeroBlock x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S2048x3) offset_zero, View.readCov_unit_zero (S := S2048x3) _ offset_zero]
  simp only [View.readAt_eq_ld, h2.read_unread, h3.read_unread,
    View.ld_unit_zero (S := S2048x3) offset_zero, View.ld_unit_zero (S := S2048x2048) offset_zero]

end Cert.KernelIdeal.Laplacian

end
-- ==== Proof.Cases.lean ====
/-
  What the accumulator and the output block hold after a grid point, by the kind of point.

  Point `t` is the first of its row of the grid when `t % 8 = 0`, the last when `t % 8 = 7`. With `acc` what the point
  before left in the accumulator, and `x₀`, `x₁` the point's two input blocks:

    first point  : accumulator = step 0 x₀ x₁;
    middle point : accumulator = step acc x₀ x₁;
    last point   : accumulator = step acc x₀ x₁, and the output block holds the same.

  For any float values.
-/
import proofs.«121353_j9431748182106_2_alg».proof.Proof.Pieces

noncomputable section

open Idealize.ShloMosaic Idealize.ShloMosaic.TcCoe Idealize.SL.Sem

namespace Cert.KernelIdeal.Laplacian

open Cert.KernelIdeal Cert.KernelIdeal.Gen

variable {F : FTy → Type} [FloatOps F]
variable (m : (ℓ : Loc nD τ sig) → Buf (Elt F) ℓ)

/-- The accumulator after the first point of a row. -/
theorem after_first (c : Dev nD) (t : Fin cfg0.N) (h0 : t.val % 8 = 0) (h1 : ¬t.val % 8 = 7) :
    (outsAt0 m c t.val t.isLt).2 = step zeroBlock (iblk m c 0 t) (iblk m c 1 t) := by
  rw [outsAt0_A m c t h0 h1]
  dsimp only
  exact acc_first (F := F) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- The accumulator after a middle point of a row. -/
theorem after_middle (c : Dev nD) (t : Fin cfg0.N) (h0 : ¬t.val % 8 = 0) (h1 : ¬t.val % 8 = 7) :
    (outsAt0 m c t.val t.isLt).2
      = step (outsAt0 m c (t.val - 1) (Nat.lt_of_le_of_lt (Nat.sub_le _ _) t.isLt)).2 (iblk m c 0 t) (iblk m c 1 t) := by
  rw [outsAt0_B m c t h0 h1]
  dsimp only
  exact acc_middle (F := F) c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- The accumulator after the last point of a row. -/
theorem after_last (c : Dev nD) (t : Fin cfg0.N) (h0 : ¬t.val % 8 = 0) (h1 : t.val % 8 = 7) :
    (outsAt0 m c t.val t.isLt).2
      = step (outsAt0 m c (t.val - 1) (Nat.lt_of_le_of_lt (Nat.sub_le _ _) t.isLt)).2 (iblk m c 0 t) (iblk m c 1 t) := by
  rw [outsAt0_C m c t h0 h1]
  dsimp only
  exact acc_last (F := F) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- The output block after the last point of a row: what the accumulator holds. -/
theorem output_last (c : Dev nD) (t : Fin cfg0.N) (h0 : ¬t.val % 8 = 0) (h1 : t.val % 8 = 7) :
    (outsAt0 m c t.val t.isLt).1 = (outsAt0 m c t.val t.isLt).2 := by
  rw [outsAt0_C m c t h0 h1]
  dsimp only
  exact (out_last (F := F) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).trans
    (acc_last (F := F) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).symm

end Cert.KernelIdeal.Laplacian

end
-- ==== Proof.LibBlockSum.lean ====
/-
  Regrouping a long sum into consecutive blocks.

  A sum over `N = G · L` consecutive positions is the sum, over the `G` blocks of `L` consecutive positions each, of the
  blocks' own sums: position `kk` of block `kb` is position `L · kb + kk` of the whole range. Only commutativity and
  associativity of `+` are used, so the law holds in every additive commutative monoid — in particular on the extended
  reals, where `+` is commutative and associative although it does not cancel and `·` does not distribute at the
  infinities. It is the law that joins a contraction (a matrix product, a long reduction) accumulated block by block
  with the same contraction taken in one piece.

  `sum_blocks` states it over `Fin (G * L)`; `sum_blocks_of_eq` over `Fin N` for a total `N` given with `N = G * L`
  (for literal sizes the equation is `rfl`), the position written `⟨L * kb + kk, _⟩`.
-/
import Mathlib.Logic.Equiv.Fin.Basic
import Mathlib.Data.Fintype.BigOperators

namespace Cert.Lib.BlockSum

open Finset

/-- Position `kk` of block `kb`, among `G · L` consecutive positions cut into `G` blocks of `L`. -/
def blockPos (G L : ℕ) (kb : Fin G) (kk : Fin L) : Fin (G * L) := finProdFinEquiv (kb, kk)

/-- As a number, position `kk` of block `kb` is `kk + L · kb`. -/
theorem blockPos_val (G L : ℕ) (kb : Fin G) (kk : Fin L) : (blockPos G L kb kk).val = kk.val + L * kb.val := rfl

/-- `L · kb + kk` is one of the `N = G · L` positions. -/
theorem blockPos_lt {G L N : ℕ} (hN : N = G * L) (kb : Fin G) (kk : Fin L) : L * kb.val + kk.val < N :=
  calc L * kb.val + kk.val < L * kb.val + L := Nat.add_lt_add_left kk.isLt _
    _ = L * (kb.val + 1) := (Nat.mul_succ L kb.val).symm
    _ ≤ L * G := Nat.mul_le_mul_left L kb.isLt
    _ = N := by rw [hN, Nat.mul_comm]

/-- A sum over `G · L` positions is the sum over the blocks of each block's sum. -/
theorem sum_blocks {M : Type*} [AddCommMonoid M] (G L : ℕ) (f : Fin (G * L) → M) :
    ∑ k, f k = ∑ kb : Fin G, ∑ kk : Fin L, f (blockPos G L kb kk) :=
  (Fintype.sum_equiv finProdFinEquiv (fun p => f (finProdFinEquiv p)) f (fun _ => rfl)).symm.trans
    (Fintype.sum_prod_type _)

/-- The same over `Fin N` with `N = G · L`, the position written `L · kb + kk`. -/
theorem sum_blocks_of_eq {M : Type*} [AddCommMonoid M] {G L N : ℕ} (hN : N = G * L) (f : Fin N → M) :
    ∑ k, f k = ∑ kb : Fin G, ∑ kk : Fin L, f ⟨L * kb.val + kk.val, blockPos_lt hN kb kk⟩ := by
  subst hN
  refine (sum_blocks G L f).trans ?_
  refine Finset.sum_congr rfl fun kb _ => Finset.sum_congr rfl fun kk _ => congrArg f (Fin.ext ?_)
  show kk.val + L * kb.val = L * kb.val + kk.val
  exact Nat.add_comm _ _

end Cert.Lib.BlockSum
-- ==== Proof.Spec.lean ====
/-
  The specification: `L · verts`, one entry at a time, and its partial sums block of columns by block of columns.

  `L` is 16384 × 16384 and `verts` is 16384 × 3, with entries in the extended reals. Entry (p, j) of the product is
  `∑ k, L(p, k) · verts(k, j)` over the 16384 positions `k` of the contracted axis. Cut that axis into 8 blocks of 2048
  consecutive positions, position `kk` of block `kb` being `2048 · kb + kk`; the part of the sum contributed by block
  `kb`, for the row `r` of row block `i` (row `2048 · i + r`), is `blockTerm L verts i kb r j`. The sum of the first `n`
  block terms is `partialSum … n`: it is what an accumulator that starts at zero and adds one block term per step holds
  after `n` steps. After all 8 steps it is the whole entry (`partialSum_all`): a regrouping of one sum, which uses only
  that `+` on the extended reals is commutative and associative — no product is distributed and nothing is cancelled, so
  the entries may be infinite.

  Positions are written for arbitrary natural block numbers, reduced modulo 16384, so that the block terms are total
  functions of the block numbers; for block numbers below 8 the reduction does nothing.
-/
import Idealize.ShloMosaic.PureOps.Ideal
import Idealize.ShloMosaic.Lib.ValueIdx
import proofs.«121353_j9431748182106_2_alg».proof.Proof.LibBlockSum

noncomputable section

open scoped BigOperators
open Idealize.ShloMosaic Idealize.ShloMosaic.ValueIdx

namespace Cert.Laplacian

/-- Position `o` of block `b` along an axis of 16384 positions cut into blocks of 2048: `2048 · b + o`. -/
def pos (b : ℕ) (o : Fin 2048) : Fin 16384 := ⟨(2048 * b + o.val) % 16384, Nat.mod_lt _ (by decide)⟩

/-- For a block number below 8 the position is `2048 · b + o` itself. -/
theorem pos_val (b : ℕ) (hb : b < 8) (o : Fin 2048) : (pos b o).val = 2048 * b + o.val := by
  have ho := o.isLt
  show (2048 * b + o.val) % 16384 = _
  omega

/-- Entry (p, j) of `L · verts`. -/
def entry (L : (⟨2, ![16384, 16384]⟩ : Shape).Idx → EReal) (verts : (⟨2, ![16384, 3]⟩ : Shape).Idx → EReal)
    (p : Fin 16384) (j : Fin 3) : EReal :=
  ∑ k : Fin 16384, L (ix2 p k) * verts (ix2 k j)

/-- The product as an array. -/
def product (L : (⟨2, ![16384, 16384]⟩ : Shape).Idx → EReal) (verts : (⟨2, ![16384, 3]⟩ : Shape).Idx → EReal) :
    (⟨2, ![16384, 3]⟩ : Shape).Idx → EReal :=
  fun q => entry L verts (q 0) (q 1)

/-- The part of entry (2048 · i + r, j) contributed by block `kb` of the contracted axis. -/
def blockTerm (L : (⟨2, ![16384, 16384]⟩ : Shape).Idx → EReal) (verts : (⟨2, ![16384, 3]⟩ : Shape).Idx → EReal)
    (i kb : ℕ) (r : Fin 2048) (j : Fin 3) : EReal :=
  ∑ kk : Fin 2048, L (ix2 (pos i r) (pos kb kk)) * verts (ix2 (pos kb kk) j)

/-- The first `n` block terms, summed. -/
def partialSum (L : (⟨2, ![16384, 16384]⟩ : Shape).Idx → EReal) (verts : (⟨2, ![16384, 3]⟩ : Shape).Idx → EReal)
    (i : ℕ) (r : Fin 2048) (j : Fin 3) (n : ℕ) : EReal :=
  ∑ kb ∈ Finset.range n, blockTerm L verts i kb r j

/-- One more block: the accumulator's step. -/
theorem partialSum_succ (L : (⟨2, ![16384, 16384]⟩ : Shape).Idx → EReal) (verts : (⟨2, ![16384, 3]⟩ : Shape).Idx → EReal)
    (i : ℕ) (r : Fin 2048) (j : Fin 3) (n : ℕ) :
    partialSum L verts i r j (n + 1) = partialSum L verts i r j n + blockTerm L verts i n r j :=
  Finset.sum_range_succ _ n

/-- The first step, from the zero accumulator. -/
theorem partialSum_one (L : (⟨2, ![16384, 16384]⟩ : Shape).Idx → EReal) (verts : (⟨2, ![16384, 3]⟩ : Shape).Idx → EReal)
    (i : ℕ) (r : Fin 2048) (j : Fin 3) :
    partialSum L verts i r j 1 = 0 + blockTerm L verts i 0 r j := by
  rw [zero_add]; exact Finset.sum_range_one _

/-- All 8 blocks: the whole entry. -/
theorem partialSum_all (L : (⟨2, ![16384, 16384]⟩ : Shape).Idx → EReal) (verts : (⟨2, ![16384, 3]⟩ : Shape).Idx → EReal)
    (i : ℕ) (r : Fin 2048) (j : Fin 3) :
    partialSum L verts i r j 8 = entry L verts (pos i r) j := by
  unfold partialSum entry
  rw [Finset.sum_range (fun kb => blockTerm L verts i kb r j),
    Cert.Lib.BlockSum.sum_blocks_of_eq (G := 8) (L := 2048) (N := 16384) rfl (fun k => L (ix2 (pos i r) k) * verts (ix2 k j))]
  refine Finset.sum_congr rfl fun kb _ => Finset.sum_congr rfl fun kk _ => ?_
  have e : pos kb.val kk = ⟨2048 * kb.val + kk.val, by omega⟩ := Fin.ext (pos_val kb.val kb.isLt kk)
  rw [e]

end Cert.Laplacian

end
-- ==== Proof.Blocks.lean ====
/-
  Which entries of the argument arrays a grid point sees.

  The grid has 64 points, point `t` being column block `t % 8` of row block `t / 8`. At point `t` the first window holds
  the 2048 × 2048 block of `L` at block row `t / 8` and block column `t % 8`; the second holds the 2048 × 3 block of
  `verts` at block row `t % 8`; the output window is the 2048 × 3 block of the result at block row `t / 8`. A block's entry
  (y₀, y₁) is the array's entry (block row · 2048 + y₀, block column · width + y₁).
-/
import proofs.«121353_j9431748182106_2_alg».proof.Proof.Gen.KernelIdeal.Frame
import proofs.«121353_j9431748182106_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Cert.Laplacian

namespace Cert.KernelIdeal.Laplacian

open Cert.KernelIdeal Cert.KernelIdeal.Gen

variable {F : FTy → Type} [FloatOps F]
variable (m : (ℓ : Loc nD τ sig) → Buf (Elt F) ℓ)

/-- The three windows' block indices at point `t`, decided once over the 64 points. -/
theorem block_indices : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Entry (r, kk) of the `L`-block at point `t` is `L` at row `2048 · (t / 8) + r`, column `2048 · (t % 8) + kk`. -/
theorem lblock_apply (c : Dev nD) (t : Fin cfg0.N) (r kk : Fin 2048) :
    (iblk m c 0 t : Vec F S2048x2048 .f32) (ix2 r kk)
      = m ((c : Thread nD τ).loc main_arg0) (ix2 (pos (t.val / 8) r) (pos (t.val % 8) kk)) := by
  obtain ⟨e0, e1, -, -, -, -⟩ := block_indices t
  have hN : t.val < 64 := lt_of_lt_of_eq t.isLt (show cfg0.N = 64 from N_0)
  have hr := r.isLt
  have hk := kk.isLt
  unfold iblk
  rw [View.read_apply]
  show V m c main_arg0 (((cfg0.win 0).blk t).view.emb (ix2 r kk)) = _
  refine congrArg (m ((c : Thread nD τ).loc main_arg0)) (funext fun a => Fin.ext ?_)
  match a with
  | ⟨0, _⟩ =>
    show win0_0.index t (0 : Fin 2) * 2048 + 1 * r.val = (2048 * (t.val / 8) + r.val) % 16384
    omega
  | ⟨1, _⟩ =>
    show win0_0.index t (1 : Fin 2) * 2048 + 1 * kk.val = (2048 * (t.val % 8) + kk.val) % 16384
    omega

/-- Entry (kk, j) of the `verts`-block at point `t` is `verts` at row `2048 · (t % 8) + kk`, column `j`. -/
theorem vblock_apply (c : Dev nD) (t : Fin cfg0.N) (kk : Fin 2048) (j : Fin 3) :
    (iblk m c 1 t : Vec F S2048x3 .f32) (ix2 kk j)
      = m ((c : Thread nD τ).loc main_arg1) (ix2 (pos (t.val % 8) kk) j) := by
  obtain ⟨-, -, e0, e1, -, -⟩ := block_indices t
  have hN : t.val < 64 := lt_of_lt_of_eq t.isLt (show cfg0.N = 64 from N_0)
  have hk := kk.isLt
  have hj := j.isLt
  unfold iblk
  rw [View.read_apply]
  show V m c main_arg1 (((cfg0.win 1).blk t).view.emb (ix2 kk j)) = _
  refine congrArg (m ((c : Thread nD τ).loc main_arg1)) (funext fun a => Fin.ext ?_)
  match a with
  | ⟨0, _⟩ =>
    show win0_1.index t (0 : Fin 2) * 2048 + 1 * kk.val = (2048 * (t.val % 8) + kk.val) % 16384
    omega
  | ⟨1, _⟩ =>
    show win0_1.index t (1 : Fin 2) * 3 + 1 * j.val = j.val
    omega

end Cert.KernelIdeal.Laplacian

end
-- ==== Proof.Payload.lean ====
/-
  The accumulator's step, one entry at a time, on the extended reals.

  At the ideal values every float is an extended real and every operation the exact one, so the update
  `acc + x₀ × x₁` (the product taken into a zero matrix) is, at row `r` and column `j` of the 2048 × 3 block,

      acc(r, j) + ∑ kk, x₀(r, kk) · x₁(kk, j)        (kk over the 2048 positions of the contracted axis),

  and the zero block is `0` everywhere. The matrix product's contraction has ONE axis: its index set is identified with the
  2048 positions, and at position `kk` the left operand is read at (r, kk) and the right operand at (kk, j).
-/
import proofs.«121353_j9431748182106_2_alg».proof.Proof.Pieces
import Idealize.ShloMosaic.Lib.ValueIdx
import Idealize.ShloMosaic.PureOps.Ideal.Laws

noncomputable section

open scoped BigOperators
open Idealize.ShloMosaic Idealize.ShloMosaic.TcCoe Idealize.ShloMosaic.ValueIdx

namespace Cert.KernelIdeal.Laplacian

open Cert.KernelIdeal Cert.KernelIdeal.Gen

/-- The zero block is `0` at every entry. -/
theorem zeroBlock_apply (q : S2048x3.Idx) : zeroBlock (F := Ideal) q = 0 := by
  unfold zeroBlock k0_pay1
  refine (congrFun (shapeCast_self _ _) q).trans ?_
  exact Ideal.ofBits_zero_f32

/-- The left operand's row is the output's row … -/
theorem lhs_row (q : S2048x3.Idx) (k : dot_S2048x2048_S2048x3_S2048x3_1_0_0_1_n_n.contr.Idx) :
    (dot_S2048x2048_S2048x3_S2048x3_1_0_0_1_n_n.lhsIdx q k 0).val = (q 0).val := by
  unfold DotDims.lhsIdx
  rw [dif_neg (show ¬(0 : Fin S2048x2048.rank) ∈ dot_S2048x2048_S2048x3_S2048x3_1_0_0_1_n_n.lhsBatch by decide),
    dif_pos (show (0 : Fin S2048x2048.rank) ∈ dot_S2048x2048_S2048x3_S2048x3_1_0_0_1_n_n.lhsNonContracting by decide)]
  rfl

/-- … its column the contracted position; -/
theorem lhs_col (q : S2048x3.Idx) (k : dot_S2048x2048_S2048x3_S2048x3_1_0_0_1_n_n.contr.Idx) :
    (dot_S2048x2048_S2048x3_S2048x3_1_0_0_1_n_n.lhsIdx q k 1).val = (k ⟨0, by decide⟩).val :=
  dot_S2048x2048_S2048x3_S2048x3_1_0_0_1_n_n.lhsIdx_val_of_single rfl q k

/-- the right operand's row is the contracted position … -/
theorem rhs_row (q : S2048x3.Idx) (k : dot_S2048x2048_S2048x3_S2048x3_1_0_0_1_n_n.contr.Idx) :
    (dot_S2048x2048_S2048x3_S2048x3_1_0_0_1_n_n.rhsIdx q k 0).val = (k ⟨0, by decide⟩).val :=
  dot_S2048x2048_S2048x3_S2048x3_1_0_0_1_n_n.rhsIdx_val_of_single rfl q k

/-- … and its column the output's column. -/
theorem rhs_col (q : S2048x3.Idx) (k : dot_S2048x2048_S2048x3_S2048x3_1_0_0_1_n_n.contr.Idx) :
    (dot_S2048x2048_S2048x3_S2048x3_1_0_0_1_n_n.rhsIdx q k 1).val = (q 1).val := by
  unfold DotDims.rhsIdx
  rw [dif_neg (show ¬(1 : Fin S2048x3.rank) ∈ dot_S2048x2048_S2048x3_S2048x3_1_0_0_1_n_n.rhsBatch by decide),
    dif_pos (show (1 : Fin S2048x3.rank) ∈ dot_S2048x2048_S2048x3_S2048x3_1_0_0_1_n_n.rhsNonContracting by decide)]
  rfl

/-- The block product into a zero matrix, at (r, j): the sum over the 2048 contracted positions. -/
theorem blockProduct_apply (x0 : FVec Ideal S2048x2048 .f32) (x1 : FVec Ideal S2048x3 .f32) (r : Fin 2048) (j : Fin 3) :
    FloatOps.matmul dot_S2048x2048_S2048x3_S2048x3_1_0_0_1_n_n none x0 x1 (constant S2048x3 .f32 0x00000000#32) (ix2 r j)
      = ∑ kk : Fin 2048, x0 (ix2 r kk) * x1 (ix2 kk j) := by
  refine (Ideal.matmul_constant_zero_apply dot_S2048x2048_S2048x3_S2048x3_1_0_0_1_n_n none x0 x1 (ix2 r j)).trans ?_
  rw [← Equiv.sum_comp (contrEquiv1 dot_S2048x2048_S2048x3_S2048x3_1_0_0_1_n_n 2048 rfl rfl).symm]
  refine Finset.sum_congr rfl fun kk _ => ?_
  have hk := contrEquiv1_symm_val dot_S2048x2048_S2048x3_S2048x3_1_0_0_1_n_n 2048 rfl rfl kk
  have el : dot_S2048x2048_S2048x3_S2048x3_1_0_0_1_n_n.lhsIdx (ix2 r j)
      ((contrEquiv1 dot_S2048x2048_S2048x3_S2048x3_1_0_0_1_n_n 2048 rfl rfl).symm kk) = ix2 r kk :=
    funext fun a => Fin.ext (by
      match a with
      | ⟨0, _⟩ => exact lhs_row _ _
      | ⟨1, _⟩ => exact (lhs_col _ _).trans hk)
  have er : dot_S2048x2048_S2048x3_S2048x3_1_0_0_1_n_n.rhsIdx (ix2 r j)
      ((contrEquiv1 dot_S2048x2048_S2048x3_S2048x3_1_0_0_1_n_n 2048 rfl rfl).symm kk) = ix2 kk j :=
    funext fun a => Fin.ext (by
      match a with
      | ⟨0, _⟩ => exact (rhs_row _ _).trans hk
      | ⟨1, _⟩ => exact rhs_col _ _)
  rw [el, er]

/-- The step at (r, j): the accumulator's entry plus the block product's. -/
theorem step_apply (acc : FVec Ideal S2048x3 .f32) (x0 : FVec Ideal S2048x2048 .f32) (x1 : FVec Ideal S2048x3 .f32)
    (r : Fin 2048) (j : Fin 3) :
    step (F := Ideal) acc x0 x1 (ix2 r j) = acc (ix2 r j) + ∑ kk : Fin 2048, x0 (ix2 r kk) * x1 (ix2 kk j) := by
  unfold step k0_pay2
  refine (congrFun (shapeCast_self _ _) (ix2 r j)).trans ?_
  exact congrArg (acc (ix2 r j) + ·) (blockProduct_apply x0 x1 r j)

end Cert.KernelIdeal.Laplacian

end
-- ==== Proof.Invariant.lean ====
/-
  The accumulator is a partial sum of the product's entries; after the last point of a row it is the whole entry.

  Write `L` and `verts` for the two argument arrays as the kernel finds them. After grid point `n` — column block `n % 8` of
  row block `n / 8` — the accumulator's entry (r, j) is the sum of the first `n % 8 + 1` block terms of entry
  (2048 · (n / 8) + r, j) of `L · verts` (`accumulator_entry`): at the first point of a row the accumulator is reset to
  zero and gains block term 0; at every later point it gains the next block term. The proof is an induction on the
  point, never an enumeration of the 64 points. At the last point of a row all 8 block terms are in, so the accumulator,
  and with it the output block, holds the entries of `L · verts` for the rows of that row block (`output_entry`).
-/
import proofs.«121353_j9431748182106_2_alg».proof.Proof.Cases
import proofs.«121353_j9431748182106_2_alg».proof.Proof.Blocks
import proofs.«121353_j9431748182106_2_alg».proof.Proof.Payload
import proofs.«121353_j9431748182106_2_alg».proof.Proof.Spec

noncomputable section

open scoped BigOperators
open Idealize.ShloMosaic Idealize.ShloMosaic.TcCoe Idealize.SL.Sem Idealize.ShloMosaic.ValueIdx
open Cert.Laplacian

namespace Cert.KernelIdeal.Laplacian

open Cert.KernelIdeal Cert.KernelIdeal.Gen

variable (m : (ℓ : Loc nD τ sig) → Buf (Elt Ideal) ℓ)

/-- One step of the accumulator, with the two input blocks KNOWN entry by entry: block `k` of the contracted axis, for
    row block `i`. The accumulator gains that block term. -/
theorem step_entry (L : S16384x16384.Idx → EReal) (verts : S16384x3.Idx → EReal) (i k : ℕ)
    (acc : FVec Ideal S2048x3 .f32) (x0 : FVec Ideal S2048x2048 .f32) (x1 : FVec Ideal S2048x3 .f32)
    (hx0 : ∀ r kk : Fin 2048, x0 (ix2 r kk) = L (ix2 (pos i r) (pos k kk)))
    (hx1 : ∀ (kk : Fin 2048) (j : Fin 3), x1 (ix2 kk j) = verts (ix2 (pos k kk) j))
    (r : Fin 2048) (j : Fin 3) :
    step (F := Ideal) acc x0 x1 (ix2 r j) = acc (ix2 r j) + blockTerm L verts i k r j := by
  refine (step_apply acc x0 x1 r j).trans ?_
  unfold blockTerm
  exact congrArg (acc (ix2 r j) + ·) (Finset.sum_congr rfl fun kk _ => by rw [hx0 r kk, hx1 kk j])

/-- THE ACCUMULATION: after point `n` the accumulator's entry (r, j) is the sum of the first `n % 8 + 1` block terms of the
    product's entry at row `2048 · (n / 8) + r`. -/
theorem accumulator_entry (c : Dev nD) : ∀ (n : ℕ) (h : n < cfg0.N) (r : Fin 2048) (j : Fin 3),
    (outsAt0 m c n h).2 (ix2 r j)
      = partialSum (m ((c : Thread nD τ).loc main_arg0)) (m ((c : Thread nD τ).loc main_arg1)) (n / 8) r j (n % 8 + 1) := by
  intro n
  induction n with
  | zero =>
    intro h r j
    refine (congrFun (after_first m c ⟨0, h⟩ rfl (show ¬(0 % 8 = 7) by decide)) (ix2 r j)).trans ?_
    refine (step_entry _ _ (0 / 8) (0 % 8) zeroBlock (iblk m c 0 ⟨0, h⟩) (iblk m c 1 ⟨0, h⟩)
      (fun r kk => lblock_apply m c ⟨0, h⟩ r kk) (fun kk j => vblock_apply m c ⟨0, h⟩ kk j) r j).trans ?_
    rw [zeroBlock_apply]
    exact (partialSum_one _ _ _ r j).symm
  | succ n ih =>
    intro h r j
    have hN : n + 1 < 64 := lt_of_lt_of_eq h (show cfg0.N = 64 from N_0)
    by_cases h0 : (n + 1) % 8 = 0
    · have h1 : ¬(n + 1) % 8 = 7 := by omega
      refine (congrFun (after_first m c ⟨n + 1, h⟩ h0 h1) (ix2 r j)).trans ?_
      refine (step_entry _ _ ((n + 1) / 8) ((n + 1) % 8) zeroBlock (iblk m c 0 ⟨n + 1, h⟩) (iblk m c 1 ⟨n + 1, h⟩)
        (fun r kk => lblock_apply m c ⟨n + 1, h⟩ r kk) (fun kk j => vblock_apply m c ⟨n + 1, h⟩ kk j) r j).trans ?_
      rw [zeroBlock_apply, h0]
      exact (partialSum_one _ _ _ r j).symm
    · have e1 : n / 8 = (n + 1) / 8 := by omega
      have e2 : n % 8 + 1 = (n + 1) % 8 := by omega
      have hprev := ih (Nat.lt_of_succ_lt h) r j
      have hstep : (outsAt0 m c (n + 1) h).2
          = step (outsAt0 m c n (Nat.lt_of_succ_lt h)).2 (iblk m c 0 ⟨n + 1, h⟩) (iblk m c 1 ⟨n + 1, h⟩) := by
        by_cases h1 : (n + 1) % 8 = 7
        · exact after_last m c ⟨n + 1, h⟩ h0 h1
        · exact after_middle m c ⟨n + 1, h⟩ h0 h1
      refine (congrFun hstep (ix2 r j)).trans ?_
      refine (step_entry _ _ ((n + 1) / 8) ((n + 1) % 8) (outsAt0 m c n (Nat.lt_of_succ_lt h)).2
        (iblk m c 0 ⟨n + 1, h⟩) (iblk m c 1 ⟨n + 1, h⟩)
        (fun r kk => lblock_apply m c ⟨n + 1, h⟩ r kk) (fun kk j => vblock_apply m c ⟨n + 1, h⟩ kk j) r j).trans ?_
      rw [hprev, e1, e2]
      exact (partialSum_succ _ _ _ r j _).symm

/-- After the LAST point of a row of the grid, the output block's entry (r, j) is entry (2048 · (t / 8) + r, j) of
    `L · verts`. -/
theorem output_entry (c : Dev nD) (t : Fin cfg0.N) (h1 : t.val % 8 = 7) (r : Fin 2048) (j : Fin 3) :
    (outsAt0 m c t.val t.isLt).1 (ix2 r j)
      = entry (m ((c : Thread nD τ).loc main_arg0)) (m ((c : Thread nD τ).loc main_arg1)) (pos (t.val / 8) r) j := by
  have h0 : ¬t.val % 8 = 0 := by omega
  rw [output_last m c t h0 h1, accumulator_entry m c t.val t.isLt r j, h1]
  exact partialSum_all _ _ _ r j

end Cert.KernelIdeal.Laplacian

end
-- ==== Proof.Tail.lean ====
/-
  The lines both programs end with, as ONE function of the 16384 × 3 array they are applied to.

  Both programs finish on the host with the same five operations on an array `X` of shape 16384 × 3: square every
  entry, sum each row's three squares from zero, take the square root of each of the 16384 sums, sum those from zero, and
  divide by 16384 (the float `0x46800000`) — the mean, over the rows, of each row's Euclidean norm. The function is
  never opened: the two programs apply it to arrays that are proved equal. Its three side conditions (the shapes of
  the two sums, and that a scalar has an element) are propositions, so the function does not depend on how they are proved.
-/
import Idealize.ShloMosaic.PureOps.Ideal

noncomputable section

open Idealize.ShloMosaic

namespace Cert.Laplacian

/-- The mean over the rows of the rows' Euclidean norms, as the host computes it at the ideal values. -/
def meanRowNorm (hrow : (⟨2, ![16384, 3]⟩ : Shape).ReducesTo [1] ⟨1, ![16384]⟩)
    (hall : (⟨1, ![16384]⟩ : Shape).ReducesTo [0] ⟨0, ![]⟩) (hone : 0 < (⟨0, ![]⟩ : Shape).numel)
    (X : FVec Ideal ⟨2, ![16384, 3]⟩ .f32) : FVec Ideal ⟨0, ![]⟩ .f32 :=
  Host.divf
    (Host.reduceAdd
      (Host.sqrt (Host.reduceAdd (mulf X X) (constant (F := Ideal) ⟨0, ![]⟩ .f32 0x00000000#32) hrow hone))
      (constant (F := Ideal) ⟨0, ![]⟩ .f32 0x00000000#32) hall hone)
    (constant (F := Ideal) ⟨0, ![]⟩ .f32 0x46800000#32)

end Cert.Laplacian

end
-- ==== Proof.Final.lean ====
/-
  The kernel's program, read: its result is the mean row norm of `L · verts`.

  The output window is written back at the last point of each row of the grid (points 7, 15, …, 63), and what point
  `8 · i + 7` writes back is the block of rows `2048 · i … 2048 · i + 2047` of the array `L · verts` (`flushed_eq`: the
  accumulated entries, placed where the block's rectangle says). The 8 blocks tile the 16384 rows, row `p` lying in the
  block of point `8 · (p / 2048) + 7` (`covered`), so after the region the result array IS `L · verts` (`product_array`).
  The host lines after the region then compute the mean row norm of that array (`tail_eq`), and the argument arrays end
  as they began (`run`).
-/
import proofs.«121353_j9431748182106_2_alg».proof.Proof.Invariant
import proofs.«121353_j9431748182106_2_alg».proof.Proof.Tail
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open Cert.Laplacian

namespace Cert.KernelIdeal.Laplacian

open Cert.KernelIdeal Cert.KernelIdeal.Gen

variable (m : (ℓ : Loc nD τ sig) → Buf (Elt Ideal) ℓ) (ρ : Dev nD → PrngReg)

/-- `L · verts` of the argument arrays, as contents of the result array of the region. -/
abbrev productArray (c : Dev nD) : Buf (Elt Ideal) ((c : Thread nD τ).loc main_v0) :=
  product (m ((c : Thread nD τ).loc main_arg0)) (m ((c : Thread nD τ).loc main_arg1))

/-- WHAT A WRITE-BACK WRITES: at the last point of a row of the grid, the block of `L · verts` the output window is on. -/
theorem flushed_eq (c : Dev nD) (t : Fin cfg0.N) (hf : (cfg0.win 2).flush t = true) :
    (dats m 0 c).flushed 2 t = ((cfg0.win 2).blk t).view.read (Elt Ideal) (productArray m c) := by
  have h1 : t.val % 8 = 7 := (flush0_2 t).mp hf
  obtain ⟨-, -, -, -, e0, e1⟩ := block_indices t
  have hN : t.val < 64 := lt_of_lt_of_eq t.isLt (show cfg0.N = 64 from N_0)
  show (cfg0.win 2).cut (grid0.coords t) ((dats m 0 c).after 2 t) = _
  rw [after0_2]
  funext y
  rw [View.read_apply]
  -- the array is kept as one name while the block's entry is located in it
  generalize hG : productArray m c = G
  show (outsAt0 m c t.val t.isLt).1 y = G (((cfg0.win 2).blk t).view.emb y)
  subst hG
  obtain ⟨r, j, rfl⟩ : ∃ (r : Fin 2048) (j : Fin 3), (y : S2048x3.Idx) = ix2 r j := ⟨y 0, y 1, eq_ix2 y⟩
  have hr := r.isLt
  have hj := j.isLt
  rw [output_entry m c t h1 r j]
  unfold productArray product
  have er : (((cfg0.win 2).blk t).view.emb (ix2 r j)) 0 = pos (t.val / 8) r := Fin.ext (by
    show win0_2.index t (0 : Fin 2) * 2048 + 1 * r.val = (2048 * (t.val / 8) + r.val) % 16384
    omega)
  have ej : (((cfg0.win 2).blk t).view.emb (ix2 r j)) 1 = j := Fin.ext (by
    show win0_2.index t (1 : Fin 2) * 3 + 1 * j.val = j.val
    omega)
  exact congrArg₂ (entry _ _) er.symm ej.symm

/-- An index of the result array is in point `t`'s block iff each coordinate is in the block's range on its axis. -/
theorem mem_block (t : Fin cfg0.N) (i : S16384x3.Idx) :
    i ∈ ((cfg0.win 2).blk t).view.set
      ↔ ∀ a : Fin 2, win0_2.index t a * S2048x3.size a ≤ (i a).val ∧ (i a).val < win0_2.index t a * S2048x3.size a + S2048x3.size a := by
  show i ∈ ((View.whole main_v0).slice (win0_2.rect t)).set ↔ _
  rw [View.set_slice_whole, Rect.mem_set_unit]
  exact Iff.rfl

/-- THE BLOCKS TILE THE ARRAY: row `p` is written back by the last point of row `p / 2048` of the grid. -/
theorem covered (i : S16384x3.Idx) :
    ∃ t : Fin cfg0.N, (cfg0.win 2).flush t = true ∧ i ∈ ((cfg0.win 2).blk t).view.set := by
  have hi0 : (i 0).val < 16384 := (i 0).isLt
  have hi1 : (i 1).val < 3 := (i 1).isLt
  obtain ⟨t, ht⟩ : ∃ t : Fin cfg0.N, t.val = 8 * ((i 0).val / 2048) + 7 :=
    ⟨⟨8 * ((i 0).val / 2048) + 7, by rw [show cfg0.N = 64 from N_0]; omega⟩, rfl⟩
  obtain ⟨-, -, -, -, e0, e1⟩ := block_indices t
  refine ⟨t, (flush0_2 t).mpr (by omega), ?_⟩
  rw [mem_block]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 3 ≤ (i 1).val ∧ (i 1).val < win0_2.index t (1 : Fin 2) * 3 + 3
    omega

/-- After the region the result array is `L · verts`. -/
theorem product_array (c : Dev nD) : (dats m 0 c).arrAt 2 cfg0.N = productArray m c :=
  (dats m 0 c).arrAt_eq_of_cover 2 (productArray m c) (flushed_eq m c) covered

/-- The host lines after the region leave, in @main's result, the mean row norm of `L · verts`. -/
theorem tail_eq (c : Dev nD) :
    Pipeline.afterTail₀ cfgs (dats m) 0 (V0 m) [hostOps1] c main_v5
      = meanRowNorm reducesTo_S16384x3_S16384_d1 reducesTo_S16384_S_d0 h_S_ (productArray m c) := by
  unfold Pipeline.afterTail₀
  show StableHlo.after hostOps1 _ (Proc.devRef .tc main_v5) = _
  after_results
  rw [(Pipeline.withArrays_arr spec0 launch0.win.arr_inj c _ _ 2).trans (product_array m c)]
  rfl

/-- The run, read: @main's result at the mean row norm of `L · verts`, the argument arrays unchanged. -/
theorem run : θ_run defs (onTc (τ := τ) (main (F := Ideal))) ⟨m, fun _ => 0, ρ⟩ fun r => ∀ c : Dev nD,
      r.2.mem ((c : Thread nD τ).loc main_v5)
        = meanRowNorm reducesTo_S16384x3_S16384_d1 reducesTo_S16384_S_d0 h_S_ (productArray m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v5 (Pipeline.mem_restRefs_of main_v5 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Laplacian

end
-- ==== Proof.RefValue.lean ====
/-
  The reference, read: its result is the mean row norm of `L · verts` too.

  The reference multiplies the two argument arrays in one piece (a `dot_general` contracting `L`'s columns with
  `verts`' rows) and then runs the same closing lines. At the ideal values that product's entry (p, j) is
  `∑ k, L(p, k) · verts(k, j)` over the 16384 contracted positions — the entry of `L · verts` as the specification
  writes it (`product_eq`) — so the reference's result is the mean row norm of that array (`result_eq`).
-/
import proofs.«121353_j9431748182106_2_alg».proof.Proof.Gen.ReferenceIdeal.Run
import proofs.«121353_j9431748182106_2_alg».proof.Proof.Gen.ReferenceIdeal.Read
import proofs.«121353_j9431748182106_2_alg».proof.Proof.Spec
import proofs.«121353_j9431748182106_2_alg».proof.Proof.Tail

noncomputable section

open scoped BigOperators
open Idealize.ShloMosaic Idealize.ShloMosaic.TcCoe Idealize.SL.Sem Idealize.ShloMosaic.ValueIdx
open Cert.Laplacian

namespace Cert.ReferenceIdeal.Laplacian

open Cert.ReferenceIdeal Cert.ReferenceIdeal.Gen

/-- The reference's one-piece product is `L · verts`, entry by entry. -/
theorem product_eq (x0 : FVec Ideal S16384x16384 .f32) (x1 : FVec Ideal S16384x3 .f32) :
    Host.dotGeneral (F := Ideal) dot_S16384x16384_S16384x3_S16384x3_1_0_0_1_n_n none x0 x1 = product x0 x1 := by
  funext q
  refine (Read.val_main_v0_apply x0 x1 q).trans ?_
  unfold product entry
  refine Finset.sum_congr rfl fun k _ => ?_
  have el : Read.lidx_main_v0 q k = ix2 (q 0) k :=
    funext fun a => Fin.ext (by match a with | ⟨0, _⟩ => rfl | ⟨1, _⟩ => rfl)
  have er : Read.ridx_main_v0 q k = ix2 k (q 1) :=
    funext fun a => Fin.ext (by match a with | ⟨0, _⟩ => rfl | ⟨1, _⟩ => rfl)
  rw [el, er]
  rfl

/-- The reference's result, as the run states it, is the mean row norm of `L · verts`. -/
theorem result_eq (x0 : FVec Ideal S16384x16384 .f32) (x1 : FVec Ideal S16384x3 .f32) :
    Host.divf (Host.reduceAdd (Host.sqrt (Host.reduceAdd
        (mulf (Host.dotGeneral (F := Ideal) dot_S16384x16384_S16384x3_S16384x3_1_0_0_1_n_n none x0 x1)
          (Host.dotGeneral (F := Ideal) dot_S16384x16384_S16384x3_S16384x3_1_0_0_1_n_n none x0 x1))
        (constant (F := Ideal) S_ .f32 0x00000000#32) reducesTo_S16384x3_S16384_d1 h_S_))
        (constant (F := Ideal) S_ .f32 0x00000000#32) reducesTo_S16384_S_d0 h_S_) (constant (F := Ideal) S_ .f32 0x46800000#32)
      = meanRowNorm reducesTo_S16384x3_S16384_d1 reducesTo_S16384_S_d0 h_S_ (product x0 x1) := by
  rw [product_eq x0 x1]
  rfl

end Cert.ReferenceIdeal.Laplacian

end
-- ==== Proof.lean ====
/-
  The mean, over 16384 vertices, of the Euclidean norm of each row of `L · verts`: a blocked product against a whole one.

  `L` is a 16384 × 16384 matrix and `verts` a 16384 × 3 matrix. Both programs compute `Lx = L · verts` and then the same
  closing lines: square the entries, sum each row's three squares, take the 16384 square roots, sum them, divide by
  16384. They differ only in how `Lx` is formed.

  The kernel walks an 8 × 8 grid. Point (i, k) multiplies the 2048 × 2048 block of `L` at block row `i`, block column `k`,
  by the 2048 × 3 block of `verts` at block row `k`, into a zero matrix, and adds the result to a running 2048 × 3
  accumulator, which is reset to zero at `k = 0` and copied to rows `2048 · i … 2048 · i + 2047` of the result at `k = 7`. So
  entry (2048 · i + r, j) of the kernel's `Lx` is

      ((0 + ∑_{kk} L(·, 0·2048 + kk) · verts(0·2048 + kk, j)) + ∑_{kk} L(·, 1·2048 + kk) · verts(1·2048 + kk, j)) + … ,

  eight block sums of 2048 products each, added in order. The reference contracts all 16384 positions at once:
  `∑_k L(2048 · i + r, k) · verts(k, j)`.

  At the ideal values a float is an extended real and each operation the exact one, so the two are the same sum
  grouped differently: the positions `k = 2048 · kb + kk` are enumerated block by block. Regrouping a finite sum needs
  only that `+` is commutative and associative, which holds on the extended reals with their infinities; no product is
  distributed over a sum and nothing is cancelled, so the entries of `L` and `verts` need not be finite and the
  precondition is never opened. The two arrays `Lx` being equal, the common closing lines, kept as one function that is
  never unfolded, give equal results.

  The modules: LibBlockSum (the regrouping law, for any block count and block length), Spec (`L · verts` entry by entry, its block terms and partial sums), Tail
  (the closing lines as one function), Pieces and Cases (what one grid point leaves in the accumulator and the output
  block, for any float values), Payload (the accumulator's step at one entry, on the extended reals), Blocks (which entries
  of the arguments a point's blocks are), Invariant (the accumulator is a partial sum: induction on the point), Final (the
  result array is `L · verts`; the kernel's program read to its end), RefValue (the reference's product is `L · verts`).

  The three frames: the two kernel programs' are the generated frame certificates; the reference has no kernel and its
  frame is its run with the result dropped. The idealization rewrote no operation, so `preserves` is `True`.
-/
import proofs.«121353_j9431748182106_2_alg».proof.Defs
import proofs.«121353_j9431748182106_2_alg».proof.Proof.Gen.Kernel
import proofs.«121353_j9431748182106_2_alg».proof.Proof.Gen.Kernel.Skeleton
import proofs.«121353_j9431748182106_2_alg».proof.Proof.Gen.Kernel.Launch
import proofs.«121353_j9431748182106_2_alg».proof.Proof.Gen.Kernel.Points
import proofs.«121353_j9431748182106_2_alg».proof.Proof.Gen.Kernel.Frame
import proofs.«121353_j9431748182106_2_alg».proof.Proof.Gen.KernelIdeal
import proofs.«121353_j9431748182106_2_alg».proof.Proof.Gen.KernelIdeal.Skeleton
import proofs.«121353_j9431748182106_2_alg».proof.Proof.Gen.KernelIdeal.Launch
import proofs.«121353_j9431748182106_2_alg».proof.Proof.Gen.KernelIdeal.Points
import proofs.«121353_j9431748182106_2_alg».proof.Proof.Gen.KernelIdeal.Frame
import proofs.«121353_j9431748182106_2_alg».proof.Proof.Gen.ReferenceIdeal
import proofs.«121353_j9431748182106_2_alg».proof.Proof.Gen.ReferenceIdeal.Run
import proofs.«121353_j9431748182106_2_alg».proof.Proof.Gen.ReferenceIdeal.Read
import proofs.«121353_j9431748182106_2_alg».proof.Proof.Gen.Pre_finite_inputs
import proofs.«121353_j9431748182106_2_alg».proof.Proof.Final
import proofs.«121353_j9431748182106_2_alg».proof.Proof.RefValue
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on `L` and `verts`, both idealized programs end with the mean row norm of `L · verts`: the
    kernel by accumulating the product block of columns by block of columns, the reference by one whole product. -/
theorem algebraic : Cert.algebraic_KernelIdeal_ReferenceIdeal := by
  intro m ρ m' ρ' _ hagree
  refine ⟨_, Cert.KernelIdeal.Laplacian.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.Laplacian.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
